-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S256x1024 : Shape := ⟨2, ![256, 1024]⟩
abbrev S256 : Shape := ⟨1, ![256]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S512x1024 .f32) (main_arg1 : FVec F S256x1024 .f32) (main_arg2 : FVec F S256 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S512x1024 : Shape := ⟨2, ![512, 1024]⟩
abbrev S256x1024 : Shape := ⟨2, ![256, 1024]⟩
abbrev S256 : Shape := ⟨1, ![256]⟩
abbrev S1x256 : Shape := ⟨2, ![1, 256]⟩
abbrev S512x256 : Shape := ⟨2, ![512, 256]⟩
abbrev S256x256 : Shape := ⟨2, ![256, 256]⟩

abbrev nBuf : Space → Nat
  | .hbm => 5
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S256x1024, .f32⟩
  | .hbm, ⟨2, _⟩ => ⟨S256, .f32⟩
  | .hbm, ⟨3, _⟩ => ⟨S1x256, .f32⟩
  | .hbm, ⟨4, _⟩ => ⟨S512x256, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1x256, .f32⟩
  | .local _ .vmem, ⟨4, _⟩ => ⟨S256x256, .f32⟩
  | .local _ .vmem, ⟨5, _⟩ => ⟨S256x256, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S256_S1x256 : S256.ShapeCasts S1x256
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  dot_S256x1024_S256x1024_S256x256_1_1_0_0_n_n_wf : DotDims.WF S256x1024 S256x1024 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S512x1024.size a
  hwx0_0 : ∀ i : grid0.Coords, EltTy.bits .f32 = 32 ∨ (Rect.block (s := S512x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S512x256.size a
  hwx0_3 : ∀ i : grid0.Coords, EltTy.bits .f32 = 32 ∨ (Rect.block (s := S512x256) S256x256.size (cc0_transform_3 i) (hinb0_3 i)).WholeWords (EltTy.packing .f32)

variable [Facts₀]

def dot_S256x1024_S256x1024_S256x256_1_1_0_0_n_n : DotDims S256x1024 S256x1024 S256x256 where
  lhsContracting := [1]
  rhsContracting := [1]
  lhsNonContracting := [0]
  rhsNonContracting := [0]
  lhsBatch := []
  rhsBatch := []
  wf := dot_S256x1024_S256x1024_S256x256_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x1024 : Shape := ⟨2, ![512, 1024]⟩
abbrev S256x1024 : Shape := ⟨2, ![256, 1024]⟩
abbrev S256 : Shape := ⟨1, ![256]⟩
abbrev S1024x256 : Shape := ⟨2, ![1024, 256]⟩
abbrev S512x256 : Shape := ⟨2, ![512, 256]⟩
abbrev S1x256 : Shape := ⟨2, ![1, 256]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S256x1024, .f32⟩
  | .hbm, ⟨2, _⟩ => ⟨S256, .f32⟩
  | .hbm, ⟨3, _⟩ => ⟨S1024x256, .f32⟩
  | .hbm, ⟨4, _⟩ => ⟨S512x256, .f32⟩
  | .hbm, ⟨5, _⟩ => ⟨S1x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S_, .f32⟩
  | .hbm, ⟨11, _⟩ => ⟨S512x256, .f32⟩
  | .hbm, ⟨12, _⟩ => ⟨S512x256, .f32⟩
  | .hbm, ⟨13, _⟩ => ⟨S_, .f32⟩
  | .hbm, ⟨14, _⟩ => ⟨S512x256, .f32⟩
  | .hbm, ⟨15, _⟩ => ⟨S512x256, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  transposes_S256x1024_S1024x256_1_0 : S256x1024.Transposes [1, 0] S1024x256
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  dot_S512x1024_S1024x256_S512x256_1_0_0_1_n_n_wf : DotDims.WF S512x1024 S1024x256 S512x256 [1] [0] [0] [1] [] []

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

class Facts : Prop extends Facts₀ where

variable [Facts]
-- ==== Proof.DenseLogistic.lean ====
/-
  The function both programs compute: one dense layer followed by the logistic function.

  For an input `x : [512, 1024]`, a weight matrix `w : [256, 1024]` and a bias `b : [256]`, the entry (p, q) of
  the result is `σ (∑ₖ x[p,k] · w[q,k] + b[q])`, where `σ z = 1 / (1 + e^(-z))` — row `p` of the input against row
  `q` of the weights (the product with the transposed matrix), the bias of column `q` added, the logistic function
  applied. Everything is read on the extended reals: the sum is a finite sum of products there, and `σ` is the
  extended reals' logistic function (`σ ⊥ = 0`, `σ ⊤ = 1`). No entry has to be finite for the function to make
  sense, and nothing below assumes one is.
-/
import Idealize.ShloMosaic.PureOps.Ideal
import Idealize.ShloMosaic.PureOps.IdealRules
import Idealize.ShloMosaic.Lib.ValueIdx

noncomputable section

open scoped BigOperators

namespace Cert.DenseLogistic

open Idealize.ShloMosaic Idealize.ShloMosaic.ValueIdx

/-- The score of row `p` of the input against row `q` of the weights: their dot product over the 1024 shared
    columns, plus the bias of `q`. -/
def score (x : FVec Ideal ⟨2, ![512, 1024]⟩ .f32) (w : FVec Ideal ⟨2, ![256, 1024]⟩ .f32) (b : FVec Ideal ⟨1, ![256]⟩ .f32)
    (p : Fin 512) (q : Fin 256) : EReal :=
  (∑ k : Fin 1024, x (ix2 p k) * w (ix2 q k)) + b (ix1 q)

/-- The layer: the logistic function of the score, entry by entry of the [512, 256] result. -/
def layer (x : FVec Ideal ⟨2, ![512, 1024]⟩ .f32) (w : FVec Ideal ⟨2, ![256, 1024]⟩ .f32) (b : FVec Ideal ⟨1, ![256]⟩ .f32) :
    FVec Ideal ⟨2, ![512, 256]⟩ .f32 :=
  fun i => Ideal.logistic (score x w b (i 0) (i 1))

/-- The layer at the entry with coordinates (p, q). -/
theorem layer_apply (x : FVec Ideal ⟨2, ![512, 1024]⟩ .f32) (w : FVec Ideal ⟨2, ![256, 1024]⟩ .f32) (b : FVec Ideal ⟨1, ![256]⟩ .f32)
    (p : Fin 512) (q : Fin 256) :
    layer x w b (ix2 p q) = Ideal.logistic ((∑ k : Fin 1024, x (ix2 p k) * w (ix2 q k)) + b (ix1 q)) := rfl

/-- The word `0x3F800000` is the number one. -/
theorem one_f32 : Ideal.ofBits .f32 0x3F800000#32 = 1 := IdealRules.sign_bit.ideal_onePat .f32

/-- The logistic function written out with a quotient, a sum, an exponential and a negation — each the extended
    reals' own operation — is the logistic function: this is its definition. -/
theorem logistic_expanded (z : EReal) : Ideal.div 1 (1 + Ideal.exp (-z)) = Ideal.logistic z := rfl

end Cert.DenseLogistic

end
-- ==== Proof.ReferenceLayer.lean ====
/-
  The reference program computes the dense layer with the logistic function.

  Its thirteen host operations are: the weights transposed; the product of the input with the transposed weights
  (contracting the input's columns with the transposed matrix's rows, so entry (p, q) sums `x[p,k] · w[q,k]`
  over `k`); the bias laid along a unit row and repeated down the 512 rows; the sum of the two; and then the
  logistic function spelled out — negate, exponential, add to one, divide one by it. Read at one entry, each
  operation reads its operands at the entry its layout names, and what remains is `1 / (1 + e^(-z))` at the score
  `z`, which is the extended reals' logistic function of `z` by definition.
-/
import proofs.«105039_j26938034881178_2_alg».proof.Proof.Gen.ReferenceIdeal.Read
import proofs.«105039_j26938034881178_2_alg».proof.Proof.DenseLogistic

noncomputable section

open scoped BigOperators

namespace Cert.ReferenceIdeal.Layer

open Cert.ReferenceIdeal Cert.ReferenceIdeal.Gen Cert.ReferenceIdeal.Read
open Idealize.ShloMosaic Idealize.ShloMosaic.ValueIdx

/-- The product's left operand is read at (row of the entry, k). -/
theorem lidx_eq (i : S512x256.Idx) (k : Fin 1024) : lidx_main_v1 i k = ix2 (i 0) k :=
  funext fun a => Fin.ext (by match a with | ⟨0, _⟩ => rfl | ⟨1, _⟩ => rfl)

/-- The transposed weights, read where the product reads its right operand, are the weights at (column of the
    entry, k). -/
theorem ridx_eq (i : S512x256.Idx) (k : Fin 1024) : idx_main_v0 (ridx_main_v1 i k) = ix2 (i 1) k :=
  funext fun a => Fin.ext (by match a with | ⟨0, _⟩ => rfl | ⟨1, _⟩ => rfl)

/-- The bias, laid along a row and repeated down the rows, is read at the column of the entry. -/
theorem bidx_eq (i : S512x256.Idx) : idx_main_v2 (idx_main_v3 i) = ix1 (i 1) :=
  funext fun a => Fin.ext (by match a with | ⟨0, _⟩ => rfl)

/-- The reference's result, as a function of its three arguments, is the layer. -/
theorem result_eq (x : FVec Ideal S512x1024 .f32) (w : FVec Ideal S256x1024 .f32) (b : FVec Ideal S256 .f32) :
    val_main_v10 (F := Ideal) x w b = Cert.DenseLogistic.layer x w b := by
  funext i
  rw [val_main_v10_apply, val_main_v9_apply, val_main_cst_0_apply, val_main_v8_apply, val_main_v7_apply,
    val_main_cst_apply, val_main_v6_apply, val_main_v5_apply, val_main_v4_apply, val_main_v1_apply,
    val_main_v3_apply, val_main_v2_apply]
  simp only [val_main_v0_apply, lidx_eq, ridx_eq, bidx_eq]
  show Ideal.div (Ideal.ofBits .f32 0x3F800000#32)
      (Ideal.ofBits .f32 0x3F800000#32 + Ideal.exp (-((∑ k : Fin 1024, x (ix2 (i 0) k) * w (ix2 (i 1) k)) + b (ix1 (i 1))))) = _
  rw [Cert.DenseLogistic.one_f32]
  rfl

end Cert.ReferenceIdeal.Layer

end
-- ==== Proof.KernelBody.lean ====
/-
  What the kernel's body computes from the three blocks it loads, read at one entry.

  At a grid point the body holds a block of 256 rows of the input (`[256, 1024]`), the whole weight matrix
  (`[256, 1024]`) and the bias as a unit row (`[1, 256]`). It multiplies the input block with the weights,
  contracting the 1024 columns of BOTH operands — so entry (p, q) of the product is `∑ₖ a[p,k] · w[q,k]`, the
  product with the transposed weights without a transpose —, starting from a zero accumulator; the change of
  format in front of the product is the identity on the extended reals. It then repeats the bias row down the 256
  rows, adds, and applies the logistic function. Entry (p, q) of what it stores is therefore the logistic function of
  `∑ₖ a[p,k] · w[q,k] + bias[0,q]`.
-/
import proofs.«105039_j26938034881178_2_alg».proof.Proof.Gen.KernelIdeal.Skeleton
import proofs.«105039_j26938034881178_2_alg».proof.Proof.DenseLogistic
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen
open Idealize.ShloMosaic Idealize.ShloMosaic.ValueIdx

/-! ## The product's operand entries -/

/-- The left operand's row is the entry's row (its one free axis is the result's first). -/
theorem lhs_row (i : S256x256.Idx) (r : dot_S256x1024_S256x1024_S256x256_1_1_0_0_n_n.contr.Idx) :
    (dot_S256x1024_S256x1024_S256x256_1_1_0_0_n_n.lhsIdx i r 0).val = (i 0).val := by
  unfold DotDims.lhsIdx
  rw [dif_neg (show ¬(0 : Fin S256x1024.rank) ∈ dot_S256x1024_S256x1024_S256x256_1_1_0_0_n_n.lhsBatch by decide),
    dif_pos (show (0 : Fin S256x1024.rank) ∈ dot_S256x1024_S256x1024_S256x256_1_1_0_0_n_n.lhsNonContracting by decide)]
  rfl

/-- The left operand's column is the summation index. -/
theorem lhs_col (i : S256x256.Idx) (r : dot_S256x1024_S256x1024_S256x256_1_1_0_0_n_n.contr.Idx) :
    (dot_S256x1024_S256x1024_S256x256_1_1_0_0_n_n.lhsIdx i r 1).val = (r ⟨0, by decide⟩).val :=
  dot_S256x1024_S256x1024_S256x256_1_1_0_0_n_n.lhsIdx_val_of_single rfl i r

/-- The right operand's row is the entry's COLUMN (its one free axis is the result's second): the weights are used
    transposed. -/
theorem rhs_row (i : S256x256.Idx) (r : dot_S256x1024_S256x1024_S256x256_1_1_0_0_n_n.contr.Idx) :
    (dot_S256x1024_S256x1024_S256x256_1_1_0_0_n_n.rhsIdx i r 0).val = (i 1).val := by
  unfold DotDims.rhsIdx
  rw [dif_neg (show ¬(0 : Fin S256x1024.rank) ∈ dot_S256x1024_S256x1024_S256x256_1_1_0_0_n_n.rhsBatch by decide),
    dif_pos (show (0 : Fin S256x1024.rank) ∈ dot_S256x1024_S256x1024_S256x256_1_1_0_0_n_n.rhsNonContracting by decide)]
  rfl

/-- The right operand's column is the summation index. -/
theorem rhs_col (i : S256x256.Idx) (r : dot_S256x1024_S256x1024_S256x256_1_1_0_0_n_n.contr.Idx) :
    (dot_S256x1024_S256x1024_S256x256_1_1_0_0_n_n.rhsIdx i r 1).val = (r ⟨0, by decide⟩).val :=
  dot_S256x1024_S256x1024_S256x256_1_1_0_0_n_n.rhsIdx_val_of_single rfl i r

/-- THE PRODUCT AT AN ENTRY: into the zero accumulator, entry (p, q) is the sum over the 1024 shared columns of
    row `p` of the left operand times row `q` of the right one. -/
theorem product_apply {φ₁ φ₂ : FTy} (a : FVec Ideal S256x1024 φ₁) (w : FVec Ideal S256x1024 φ₂) (p q : Fin 256) :
    matmul dot_S256x1024_S256x1024_S256x256_1_1_0_0_n_n none a w (constant S256x256 .f32 0x00000000#32) (ix2 p q)
      = ∑ k : Fin 1024, a (ix2 p k) * w (ix2 q k) := by
  simp only [matmul]
  rw [Ideal.matmul_constant_zero_apply,
    ← Equiv.sum_comp (contrEquiv1 dot_S256x1024_S256x1024_S256x256_1_1_0_0_n_n 1024 rfl rfl).symm]
  refine Finset.sum_congr rfl fun k _ => ?_
  have hk := contrEquiv1_symm_val dot_S256x1024_S256x1024_S256x256_1_1_0_0_n_n 1024 rfl rfl k
  have el : dot_S256x1024_S256x1024_S256x256_1_1_0_0_n_n.lhsIdx (ix2 p q)
      ((contrEquiv1 dot_S256x1024_S256x1024_S256x256_1_1_0_0_n_n 1024 rfl rfl).symm k) = ix2 p k :=
    funext fun c => Fin.ext (by
      match c with
      | ⟨0, _⟩ => exact lhs_row _ _
      | ⟨1, _⟩ => exact (lhs_col _ _).trans hk)
  have er : dot_S256x1024_S256x1024_S256x256_1_1_0_0_n_n.rhsIdx (ix2 p q)
      ((contrEquiv1 dot_S256x1024_S256x1024_S256x256_1_1_0_0_n_n 1024 rfl rfl).symm k) = ix2 q k :=
    funext fun c => Fin.ext (by
      match c with
      | ⟨0, _⟩ => exact rhs_row _ _
      | ⟨1, _⟩ => exact (rhs_col _ _).trans hk)
  rw [el, er]

/-! ## The bias row repeated down the rows -/

/-- The unit row repeated down 256 rows, read at (p, q), is the row at (0, q). -/
theorem bias_rows_apply (v : FVec Ideal S1x256 .f32) (p q : Fin 256) :
    broadcastTo S256x256 (shapeCast S1x256 v shapeCasts_S1x256_S1x256) broadcasts_S1x256_S256x256 (ix2 p q)
      = v (ix2 0 q) := by
  rw [shapeCast_self]
  exact broadcastTo_apply v broadcasts_S1x256_S256x256 (ix2 p q) (ix2 0 q) (fun c => by
    match c with
    | ⟨0, _⟩ => show (0 : Nat) = if (1 : Nat) = 1 then 0 else _; rw [if_pos rfl]
    | ⟨1, _⟩ => show q.val = if (256 : Nat) = 1 then 0 else q.val; rw [if_neg (by decide)])

/-! ## The stored value -/

/-- THE BODY'S STORED VALUE AT (p, q): the logistic function of row `p` of the input block against row `q` of the
    weights, plus the bias row's entry `q`. -/
theorem stored_apply (a : FVec Ideal S256x1024 .f32) (w : FVec Ideal S256x1024 .f32) (v : FVec Ideal S1x256 .f32) (p q : Fin 256) :
    k0_pay1 (F := Ideal) a w v (ix2 p q)
      = Ideal.logistic ((∑ k : Fin 1024, a (ix2 p k) * w (ix2 q k)) + v (ix2 0 q)) := by
  unfold k0_pay1
  show Ideal.logistic
      (matmul (F := Ideal) dot_S256x1024_S256x1024_S256x256_1_1_0_0_n_n none (truncf .bf16 a bitsLt_bf16_f32) (truncf .bf16 w bitsLt_bf16_f32)
          (constant S256x256 .f32 0x00000000#32) (ix2 p q)
        + broadcastTo S256x256 (shapeCast S1x256 v shapeCasts_S1x256_S1x256) broadcasts_S1x256_S256x256 (ix2 p q)) = _
  rw [product_apply, bias_rows_apply]
  rfl

end Cert.KernelIdeal.Body

end
-- ==== Proof.KernelLayer.lean ====
/-
  The kernel's result array is the dense layer with the logistic function.

  The grid has two points. Point `t` loads rows `256·t … 256·t + 255` of the input, the whole weight matrix and
  the whole bias row (the bias with a unit axis put in front of it before the launch), and writes rows
  `256·t … 256·t + 255` of the result. Entry (p, q) of what it writes is the logistic function of row `p` of its
  input block against row `q` of the weights plus the bias entry `q`; row `p` of the block is row `256·t + p` of the
  input, so the block written is the block of the layer at the same rows. The two row blocks are disjoint and
  together are all 512 rows, so after the run the whole result array is the layer of the three arguments.
-/
import proofs.«105039_j26938034881178_2_alg».proof.Proof.Gen.KernelIdeal.Value
import proofs.«105039_j26938034881178_2_alg».proof.Proof.KernelBody
import Idealize.ShloMosaic.Lib.Pipeline.Value
import Idealize.ShloMosaic.Lib.StableHlo.Run
import Idealize.ShloMosaic.Lib.Tactic

noncomputable section

open scoped BigOperators

namespace Cert.KernelIdeal.Layer

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Every access of the body starts at the corner of its buffer. -/
theorem zero_offsets : (![0, 0] : Fin 2 → Nat) = fun _ => 0 := funext fun a => by fin_cases a <;> rfl

/-! ## The bias row the launch finds -/

/-- The third window's array is the bias recast from `[256]` to `[1, 256]`, the one operation before the launch. -/
theorem bias_array (c : Dev nD) :
    (V m c main_v0 : S1x256.Idx → EReal) = shapeCast S1x256 (m ((c : Thread nD τ).loc main_arg2)) shapeCasts_S256_S1x256 := by
  dsimp only [Gen.V, Gen.hostOps0]; after_results; rfl

/-- Its entry (0, q) is the bias entry `q`: the recast keeps the row-major position. -/
theorem bias_array_apply (c : Dev nD) (q : Fin 256) :
    (V m c main_v0 : S1x256.Idx → EReal) (ix2 0 q) = (m ((c : Thread nD τ).loc main_arg2) : S256.Idx → EReal) (ix1 q) := by
  rw [bias_array]
  exact shapeCast_apply _ shapeCasts_S256_S1x256 (ix2 0 q) (ix1 q) (by
    rw [Shape.rowMajor_val_one, Shape.rowMajor_val_two]
    show q.val = 0 * 256 + q.val
    omega)

/-! ## Where each window's block sits -/

/-- The printed index maps over the two grid points: the input's and the result's blocks move together down the
    rows (block row `t` at point `t`), every other block index is zero. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input block at point `t`, at (p, k), is the input at (256·t + p, k). -/
theorem input_block_apply (c : Dev nD) (t : Fin cfg0.N) (p : Fin 256) (k : Fin 1024) (r : Fin 512)
    (hr : r.val = t.val * 256 + p.val) :
    (iblk m c 0 t : S256x1024.Idx → EReal) (ix2 p k)
      = (m ((c : Thread nD τ).loc main_arg0) : S512x1024.Idx → EReal) (ix2 r k) := by
  obtain ⟨e0, e1, -⟩ := index_maps t
  unfold iblk
  rw [View.read_apply]
  refine (congrFun (V_main_arg0 m c) _).trans ?_
  refine congrArg _ (funext fun a => Fin.ext ?_)
  match a with
  | ⟨0, _⟩ => show win0_0.index t (0 : Fin 2) * 256 + 1 * p.val = r.val; rw [e0, hr]; omega
  | ⟨1, _⟩ => show win0_0.index t (1 : Fin 2) * 1024 + 1 * k.val = k.val; rw [e1]; omega

/-- The weights' block at every point is the whole weight matrix. -/
theorem weights_block_apply (c : Dev nD) (t : Fin cfg0.N) (q : Fin 256) (k : Fin 1024) :
    (iblk m c 1 t : S256x1024.Idx → EReal) (ix2 q k)
      = (m ((c : Thread nD τ).loc main_arg1) : S256x1024.Idx → EReal) (ix2 q k) := by
  obtain ⟨-, -, e2, e3, -⟩ := index_maps t
  unfold iblk
  rw [View.read_apply]
  refine (congrFun (V_main_arg1 m c) _).trans ?_
  refine congrArg _ (funext fun a => Fin.ext ?_)
  match a with
  | ⟨0, _⟩ => show win0_1.index t (0 : Fin 2) * 256 + 1 * q.val = q.val; rw [e2]; omega
  | ⟨1, _⟩ => show win0_1.index t (1 : Fin 2) * 1024 + 1 * k.val = k.val; rw [e3]; omega

/-- The bias row's block at every point is the whole row: its entry (0, q) is the bias entry `q`. -/
theorem bias_block_apply (c : Dev nD) (t : Fin cfg0.N) (q : Fin 256) :
    (iblk m c 2 t : S1x256.Idx → EReal) (ix2 0 q)
      = (m ((c : Thread nD τ).loc main_arg2) : S256.Idx → EReal) (ix1 q) := by
  obtain ⟨-, -, -, -, e4, e5, -⟩ := index_maps t
  unfold iblk
  rw [View.read_apply]
  refine Eq.trans ?_ (bias_array_apply m c q)
  show V m c main_v0 _ = V m c main_v0 _
  refine congrArg _ (funext fun a => Fin.ext ?_)
  match a with
  | ⟨0, _⟩ => show win0_2.index t (0 : Fin 2) * 1 + 1 * 0 = 0; rw [e4]
  | ⟨1, _⟩ => show win0_2.index t (1 : Fin 2) * 256 + 1 * q.val = q.val; rw [e5]; omega

/-! ## What a point writes back -/

/-- WHAT POINT `t` WRITES BACK is block `t` of the layer of the three arguments. -/
theorem flushed_eq (c : Dev nD) (t : Fin cfg0.N) :
    (dats m 0 c).flushed 3 t = ((cfg0.win 3).blk t).view.read (Elt Ideal)
      (Cert.DenseLogistic.layer (m ((c : Thread nD τ).loc main_arg0)) (m ((c : Thread nD τ).loc main_arg1))
        (m ((c : Thread nD τ).loc main_arg2))) := by
  rw [Value.flushed3]
  unfold out0_3
  rw [View.canon_unit_zero zero_offsets]
  simp only [View.ld_unit_zero (S := S256x1024) zero_offsets, View.ld_unit_zero (S := S1x256) zero_offsets]
  obtain ⟨-, -, -, -, -, -, e6, e7⟩ := index_maps t
  have hN : cfg0.N = 2 := N_0
  have ht : t.val < 2 := hN ▸ t.isLt
  funext j
  obtain ⟨p, q, rfl⟩ : ∃ (p q : Fin 256), j = ix2 p q := ⟨j 0, j 1, eq_ix2 j⟩
  have hr : t.val * 256 + p.val < 512 := by have := p.isLt; omega
  have hemb : ((cfg0.win 3).blk t).view.emb (ix2 p q) = ix2 (⟨t.val * 256 + p.val, hr⟩ : Fin 512) q :=
    funext fun a => Fin.ext (by
      match a with
      | ⟨0, _⟩ => show win0_3.index t (0 : Fin 2) * 256 + 1 * p.val = t.val * 256 + p.val; rw [e6]; omega
      | ⟨1, _⟩ => show win0_3.index t (1 : Fin 2) * 256 + 1 * q.val = q.val; rw [e7]; omega)
  show k0_pay1 (F := Ideal) (iblk m c 0 t) (iblk m c 1 t) (iblk m c 2 t) (ix2 p q)
    = Cert.DenseLogistic.layer _ _ _ (((cfg0.win 3).blk t).view.emb (ix2 p q))
  rw [hemb, Cert.DenseLogistic.layer_apply]
  refine (Cert.KernelIdeal.Body.stored_apply _ _ _ p q).trans ?_
  refine congrArg Ideal.logistic ?_
  refine congr (congrArg HAdd.hAdd (Finset.sum_congr rfl fun k _ => ?_)) (bias_block_apply m c t q)
  rw [input_block_apply m c t p k ⟨t.val * 256 + p.val, hr⟩ rfl, weights_block_apply m c t q k]

/-! ## The two blocks are the whole array -/

/-- An entry of the result array is in point `t`'s block when each coordinate is in the block's range. -/
theorem mem_block (t : Fin cfg0.N) (i : S512x256.Idx) :
    i ∈ ((cfg0.win 3).blk t).view.set ↔ ∀ a : Fin 2, win0_3.index t a * S256x256.size a ≤ (i a).val
      ∧ (i a).val < win0_3.index t a * S256x256.size a + S256x256.size a := by
  show i ∈ ((View.whole main_v1).slice (win0_3.rect t)).set ↔ _
  rw [View.set_slice_whole, Rect.mem_set_unit]
  exact Iff.rfl

/-- Every entry is in the block of the point its row falls in: row `r` belongs to point `r / 256`. -/
theorem covered (i : S512x256.Idx) :
    ∃ t : Fin cfg0.N, (cfg0.win 3).flush t = true ∧ i ∈ ((cfg0.win 3).blk t).view.set := by
  have hi0 : (i 0).val < 512 := (i 0).isLt
  have hi1 : (i 1).val < 256 := (i 1).isLt
  have hN : cfg0.N = 2 := N_0
  have hlt : (i 0).val / 256 < cfg0.N := by rw [hN]; omega
  obtain ⟨-, -, -, -, -, -, e6, e7⟩ := index_maps ⟨(i 0).val / 256, hlt⟩
  refine ⟨⟨(i 0).val / 256, hlt⟩, flush0_3 _, ?_⟩
  rw [mem_block]
  intro a
  match a with
  | ⟨0, _⟩ =>
    show win0_3.index ⟨(i 0).val / 256, hlt⟩ (0 : Fin 2) * 256 ≤ (i 0).val
      ∧ (i 0).val < win0_3.index ⟨(i 0).val / 256, hlt⟩ (0 : Fin 2) * 256 + 256
    rw [e6]; show (i 0).val / 256 * 256 ≤ (i 0).val ∧ (i 0).val < (i 0).val / 256 * 256 + 256; omega
  | ⟨1, _⟩ =>
    show win0_3.index ⟨(i 0).val / 256, hlt⟩ (1 : Fin 2) * 256 ≤ (i 1).val
      ∧ (i 1).val < win0_3.index ⟨(i 0).val / 256, hlt⟩ (1 : Fin 2) * 256 + 256
    rw [e7]; omega

/-! ## The array after the run, and the run -/

/-- THE RESULT ARRAY after the run is the layer of the three arguments. -/
theorem final (c : Dev nD) :
    (dats m 0 c).arrAt 3 cfg0.N = Cert.DenseLogistic.layer (m ((c : Thread nD τ).loc main_arg0))
      (m ((c : Thread nD τ).loc main_arg1)) (m ((c : Thread nD τ).loc main_arg2)) :=
  (dats m 0 c).arrAt_eq_of_cover 3 _ (fun t _ => flushed_eq m c t) covered

/-- The kernel's run: every weakly fair execution terminates with the result array at the layer of the arguments
    and the arguments unchanged. -/
theorem run : θ_run defs (onTc (τ := τ) (main (F := Ideal))) ⟨m, fun _ => 0, ρ⟩ fun r => ∀ c : Dev nD,
      r.2.mem ((c : Thread nD τ).loc main_v1) = Cert.DenseLogistic.layer (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Layer

end
-- ==== Proof.lean ====
/-
  A dense layer with the logistic function, as a two-point kernel and as plain array operations: both compute
  `σ (x · wᵀ + b)`, entry by entry, on the extended reals.

  The function (DenseLogistic.lean): for `x : [512, 1024]`, `w : [256, 1024]`, `b : [256]`, entry (p, q) of the result
  is `σ (∑ₖ x[p,k] · w[q,k] + b[q])` with `σ z = 1 / (1 + e^(-z))`.

  The kernel (KernelBody.lean, KernelLayer.lean) splits the 512 rows into two blocks of 256. At each block it
  multiplies the block with the weights contracting the columns of both (the product with the transposed weights),
  adds the bias row, and applies the logistic function; the narrowing of the operands in front of the product is
  the identity on the extended reals. The two blocks it writes are the two halves of the layer.

  The reference (ReferenceLayer.lean) transposes the weights, multiplies, adds the bias repeated down the rows and
  writes the logistic function out as `1 / (1 + e^(-z))`: the same sum of the same products, and the logistic
  function by its definition.

  The two sides differ only in how the sum's terms are laid out and in how the logistic function is spelled, so the
  equality needs no algebraic law beyond reading both at an entry, and in particular no entry has to be finite:
  the precondition is not used. The idealization rewrote no operation of the kernel, so there is nothing to
  preserve beyond the program's own text.
-/
import proofs.«105039_j26938034881178_2_alg».proof.Defs
import proofs.«105039_j26938034881178_2_alg».proof.Proof.Gen.Kernel
import proofs.«105039_j26938034881178_2_alg».proof.Proof.Gen.Kernel.Skeleton
import proofs.«105039_j26938034881178_2_alg».proof.Proof.Gen.Kernel.Launch
import proofs.«105039_j26938034881178_2_alg».proof.Proof.Gen.Kernel.Points
import proofs.«105039_j26938034881178_2_alg».proof.Proof.Gen.Kernel.Frame
import proofs.«105039_j26938034881178_2_alg».proof.Proof.Gen.KernelIdeal
import proofs.«105039_j26938034881178_2_alg».proof.Proof.Gen.KernelIdeal.Skeleton
import proofs.«105039_j26938034881178_2_alg».proof.Proof.Gen.KernelIdeal.Launch
import proofs.«105039_j26938034881178_2_alg».proof.Proof.Gen.KernelIdeal.Points
import proofs.«105039_j26938034881178_2_alg».proof.Proof.Gen.KernelIdeal.Frame
import proofs.«105039_j26938034881178_2_alg».proof.Proof.Gen.ReferenceIdeal
import proofs.«105039_j26938034881178_2_alg».proof.Proof.Gen.Pre_finite_inputs
import proofs.«105039_j26938034881178_2_alg».proof.Proof.Gen.KernelIdeal.Value
import proofs.«105039_j26938034881178_2_alg».proof.Proof.Gen.ReferenceIdeal.Run
import proofs.«105039_j26938034881178_2_alg».proof.Proof.Gen.ReferenceIdeal.Read
import proofs.«105039_j26938034881178_2_alg».proof.Proof.DenseLogistic
import proofs.«105039_j26938034881178_2_alg».proof.Proof.ReferenceLayer
import proofs.«105039_j26938034881178_2_alg».proof.Proof.KernelBody
import proofs.«105039_j26938034881178_2_alg».proof.Proof.KernelLayer
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the three arguments, the kernel's result array and the reference's both end at the
    layer of those arguments. -/
theorem algebraic : Cert.algebraic_KernelIdeal_ReferenceIdeal := by
  intro m ρ m' ρ' _ hagree
  refine ⟨fun c => Cert.DenseLogistic.layer (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.Layer.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
